-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x256 .f32) (main_arg1 : FVec F S256x64 .f32) (main_arg2 : FVec F S64 .f32) (main_arg3 : FVec F S64x32 .f32) (main_arg4 : FVec F S32 .f32) (main_arg5 : IVec S800000 32) (main_arg6 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S50000x256 : Shape := ⟨2, ![50000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S5000x256 : Shape := ⟨2, ![5000, 256]⟩
abbrev S5000x1 : Shape := ⟨2, ![5000, 1]⟩
abbrev S5000x64 : Shape := ⟨2, ![5000, 64]⟩
abbrev S800000x64 : Shape := ⟨2, ![800000, 64]⟩
abbrev S1x64 : Shape := ⟨2, ![1, 64]⟩
abbrev S50000x32 : Shape := ⟨2, ![50000, 32]⟩
abbrev S5000x32 : Shape := ⟨2, ![5000, 32]⟩
abbrev S800000x32 : Shape := ⟨2, ![800000, 32]⟩
abbrev S1x32 : Shape := ⟨2, ![1, 32]⟩

abbrev nBuf : Space → Nat
  | .hbm => 62
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S1x64, .f32⟩
  | .hbm, ⟨46, _⟩ => ⟨S50000x32, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x32, .f32⟩
  | .hbm, ⟨56, _⟩ => ⟨S_, .f32⟩
  | .hbm, ⟨57, _⟩ => ⟨S50000x32, .f32⟩
  | .hbm, ⟨58, _⟩ => ⟨S800000x1, .i32⟩
  | .hbm, ⟨59, _⟩ => ⟨S50000x32, .f32⟩
  | .hbm, ⟨60, _⟩ => ⟨S1x32, .f32⟩
  | .hbm, ⟨61, _⟩ => ⟨S50000x32, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x1, .f32⟩
  | .local _ .vmem, ⟨13, _⟩ => ⟨S5000x1, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x1, .f32⟩
  | .local _ .vmem, ⟨20, _⟩ => ⟨S5000x1, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S50000_S800000x1_S800000_n_0_0_1_wf : ScatterDims.WF S50000 S800000x1 S800000 [] [0] [0] 1
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x32_S5000x32_1_0_0_1_n_n_wf : DotDims.WF S5000x64 S64x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S50000x32.size a
  hwx1_5 : ∀ i : grid1.Coords, EltTy.bits .f32 = 32 ∨ (Rect.block (s := S50000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S256x64 : Shape := ⟨2, ![256, 64]⟩
abbrev S64 : Shape := ⟨1, ![64]⟩
abbrev S64x32 : Shape := ⟨2, ![64, 32]⟩
abbrev S32 : Shape := ⟨1, ![32]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S800000x64 : Shape := ⟨2, ![800000, 64]⟩
abbrev S1x64 : Shape := ⟨2, ![1, 64]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 97
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x64, .f32⟩
  | .hbm, ⟨2, _⟩ => ⟨S64, .f32⟩
  | .hbm, ⟨3, _⟩ => ⟨S64x32, .f32⟩
  | .hbm, ⟨4, _⟩ => ⟨S32, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x256, .f32⟩
  | .hbm, ⟨31, _⟩ => ⟨S50000x256, .f32⟩
  | .hbm, ⟨32, _⟩ => ⟨S50000x64, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x1, .f32⟩
  | .hbm, ⟨47, _⟩ => ⟨S50000x64, .f32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x64, .f32⟩
  | .hbm, ⟨76, _⟩ => ⟨S50000x64, .f32⟩
  | .hbm, ⟨77, _⟩ => ⟨S50000x32, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x32, .f32⟩
  | .hbm, ⟨87, _⟩ => ⟨S_, .f32⟩
  | .hbm, ⟨88, _⟩ => ⟨S50000x32, .f32⟩
  | .hbm, ⟨89, _⟩ => ⟨S800000x1, .i32⟩
  | .hbm, ⟨90, _⟩ => ⟨S50000x32, .f32⟩
  | .hbm, ⟨91, _⟩ => ⟨S50000x1, .f32⟩
  | .hbm, ⟨92, _⟩ => ⟨S50000x32, .f32⟩
  | .hbm, ⟨93, _⟩ => ⟨S50000x32, .f32⟩
  | .hbm, ⟨94, _⟩ => ⟨S1x32, .f32⟩
  | .hbm, ⟨95, _⟩ => ⟨S50000x32, .f32⟩
  | .hbm, ⟨96, _⟩ => ⟨S50000x32, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_15 : Ref sig .tc := ⟨.hbm, 78, rfl⟩
abbrev main_v54 : Ref sig .tc := ⟨.hbm, 79, rfl⟩
abbrev main_v55 : Ref sig .tc := ⟨.hbm, 80, rfl⟩
abbrev main_c_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_17 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.KernelRun.lean ====
/-
  The run of the three-region program with its result named.

  The program's buffers are followed through its six segments (host operations, region, host operations, region,
  host operations, region) as a fold from the launch memory; after the last region every unscoped buffer holds the
  fold's last stage.  The frame statement keeps of this only that the argument arrays end as launched.  Here the
  result array is kept too: it ends at the last stage's contents of the result buffer, which the value modules read
  back region by region.
-/
import proofs.«166579_j30391188586834_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    stage of the fold and the argument arrays end as launched. -/
theorem run : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Named

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.Dense.lean ====
/-
  The dense stages of a two-layer graph convolution, as whole-array functions over the extended reals.

  A layer multiplies every row of its input by that row's out-degree factor, applies the weight matrix, sums the
  rows of the result along the graph's edges, multiplies every row of the sum by the row's in-degree factor and adds
  the bias row.  The edge sum is the same operation in both programs compared here and is never opened; what is
  compared is the arithmetic around it, in three pieces:

    * `layerA x s W`            : (x with row p scaled by s p) · W                               — before the first edge sum;
    * `layerB a sᵢ b sₒ W`      : (((a with row p scaled by sᵢ p) + b) with row p scaled by sₒ p) · W
                                                                                      — between the two edge sums;
    * `layerC a sᵢ b`           : (a with row p scaled by sᵢ p) + b                               — after the second edge sum.

  Every entry of each depends on ONE row of the row-indexed operands, so a block of consecutive rows of the result
  is the same function of the corresponding blocks of rows (`layerA_rows`, `layerB_rows`, `layerC_rows`).  The
  remaining lemmas read the vector operations a program spells these stages with — a one-column array broadcast
  along the rows, a one-row array broadcast down the columns, a change of float format, a matrix unit's product onto
  the zero accumulator — at an index given by its coordinates (the layout readings are `RowCol`'s and the library's).
  All extents are generic.
-/
import Idealize.ShloMosaic.Lib.Pipeline.Value
import Idealize.ShloMosaic.Lib.ValueIdx
import Idealize.ShloMosaic.Lib.ValueLayout
import Idealize.ShloMosaic.PureOps.Ideal.Laws
import proofs.«166579_j30391188586834_1_alg».proof.Proof.LibMatProd
import proofs.«166579_j30391188586834_1_alg».proof.Proof.LibRowCol

noncomputable section

open scoped BigOperators

namespace GraphConv

open Idealize.ShloMosaic Idealize.ShloMosaic.ValueIdx MatProd RowCol

/-- An `n × k` array of extended reals. -/
abbrev Mat (n k : ℕ) : Type := (⟨2, ![n, k]⟩ : Shape).Idx → EReal

/-! ## The stages -/

/-- Row `p` of `x` multiplied by the entry `(p, 0)` of the one-column array `s`. -/
def scaleRows {n k : ℕ} (x : Mat n k) (s : Mat n 1) : Mat n k :=
  fun i => x i * s (ix2 ⟨(i 0).val, idx2_lt0 i⟩ (0 : Fin 1))

/-- The one-row array `b` added to every row of `x`. -/
def addRow {n k : ℕ} (x : Mat n k) (b : Mat 1 k) : Mat n k :=
  fun i => x i + b (ix2 (0 : Fin 1) ⟨(i 1).val, idx2_lt1 i⟩)

theorem scaleRows_ix2 {n k : ℕ} (x : Mat n k) (s : Mat n 1) (p : Fin n) (q : Fin k) :
    scaleRows x s (ix2 p q) = x (ix2 p q) * s (ix2 p (0 : Fin 1)) := rfl

theorem addRow_ix2 {n k : ℕ} (x : Mat n k) (b : Mat 1 k) (p : Fin n) (q : Fin k) :
    addRow x b (ix2 p q) = x (ix2 p q) + b (ix2 (0 : Fin 1) q) := rfl

/-- The stage before the first edge sum. -/
def layerA {n k m : ℕ} (x : Mat n k) (s : Mat n 1) (W : Mat k m) : Mat n m :=
  mm (scaleRows x s) W

/-- The stage between the two edge sums: the first layer's in-degree factor and bias, then the second layer's
    out-degree factor and weight matrix. -/
def layerB {n k m : ℕ} (a : Mat n k) (sIn : Mat n 1) (b : Mat 1 k) (sOut : Mat n 1) (W : Mat k m) : Mat n m :=
  mm (scaleRows (addRow (scaleRows a sIn) b) sOut) W

/-- The stage after the second edge sum. -/
def layerC {n k : ℕ} (a : Mat n k) (sIn : Mat n 1) (b : Mat 1 k) : Mat n k :=
  addRow (scaleRows a sIn) b

/-! ## A block of rows of a stage is the stage of the blocks of rows

  `X` stands for a block of `n'` rows, `A` for the whole array of `n` rows, `i` for the index in the whole array of
  the block's entry `(p, q)`: the hypotheses say that row `p` of each row-indexed block is row `i 0` of its array and
  that the column is kept. -/

theorem layerA_rows {n n' k m : ℕ} (A0 : Mat n k) (A1 : Mat n 1) (A2 : Mat k m)
    (X0 : Mat n' k) (X1 : Mat n' 1) (X2 : Mat k m) (p : Fin n') (q : Fin m) (i : (⟨2, ![n, m]⟩ : Shape).Idx)
    (h0 : ∀ l : Fin k, X0 (ix2 p l) = A0 (ix2 ⟨(i 0).val, idx2_lt0 i⟩ l))
    (h1 : X1 (ix2 p (0 : Fin 1)) = A1 (ix2 ⟨(i 0).val, idx2_lt0 i⟩ (0 : Fin 1)))
    (h2 : ∀ l : Fin k, X2 (ix2 l q) = A2 (ix2 l ⟨(i 1).val, idx2_lt1 i⟩)) :
    layerA X0 X1 X2 (ix2 p q) = layerA A0 A1 A2 i := by
  show entry (scaleRows X0 X1) X2 p q = entry (scaleRows A0 A1) A2 ⟨(i 0).val, idx2_lt0 i⟩ ⟨(i 1).val, idx2_lt1 i⟩
  unfold entry
  refine Finset.sum_congr rfl fun l _ => ?_
  rw [scaleRows_ix2, scaleRows_ix2, h0 l, h1, h2 l]

theorem layerB_rows {n n' k m : ℕ} (A0 : Mat n k) (A1 : Mat n 1) (A2 : Mat 1 k) (A3 : Mat n 1) (A4 : Mat k m)
    (X0 : Mat n' k) (X1 : Mat n' 1) (X2 : Mat 1 k) (X3 : Mat n' 1) (X4 : Mat k m) (p : Fin n') (q : Fin m)
    (i : (⟨2, ![n, m]⟩ : Shape).Idx)
    (h0 : ∀ l : Fin k, X0 (ix2 p l) = A0 (ix2 ⟨(i 0).val, idx2_lt0 i⟩ l))
    (h1 : X1 (ix2 p (0 : Fin 1)) = A1 (ix2 ⟨(i 0).val, idx2_lt0 i⟩ (0 : Fin 1)))
    (h2 : ∀ l : Fin k, X2 (ix2 (0 : Fin 1) l) = A2 (ix2 (0 : Fin 1) l))
    (h3 : X3 (ix2 p (0 : Fin 1)) = A3 (ix2 ⟨(i 0).val, idx2_lt0 i⟩ (0 : Fin 1)))
    (h4 : ∀ l : Fin k, X4 (ix2 l q) = A4 (ix2 l ⟨(i 1).val, idx2_lt1 i⟩)) :
    layerB X0 X1 X2 X3 X4 (ix2 p q) = layerB A0 A1 A2 A3 A4 i := by
  show entry (scaleRows (addRow (scaleRows X0 X1) X2) X3) X4 p q
    = entry (scaleRows (addRow (scaleRows A0 A1) A2) A3) A4 ⟨(i 0).val, idx2_lt0 i⟩ ⟨(i 1).val, idx2_lt1 i⟩
  unfold entry
  refine Finset.sum_congr rfl fun l _ => ?_
  rw [scaleRows_ix2, scaleRows_ix2, addRow_ix2, addRow_ix2, scaleRows_ix2, scaleRows_ix2, h0 l, h1, h2 l, h3, h4 l]

theorem layerC_rows {n n' k : ℕ} (A0 : Mat n k) (A1 : Mat n 1) (A2 : Mat 1 k)
    (X0 : Mat n' k) (X1 : Mat n' 1) (X2 : Mat 1 k) (p : Fin n') (q : Fin k) (i : (⟨2, ![n, k]⟩ : Shape).Idx)
    (h0 : X0 (ix2 p q) = A0 i)
    (h1 : X1 (ix2 p (0 : Fin 1)) = A1 (ix2 ⟨(i 0).val, idx2_lt0 i⟩ (0 : Fin 1)))
    (h2 : X2 (ix2 (0 : Fin 1) q) = A2 (ix2 (0 : Fin 1) ⟨(i 1).val, idx2_lt1 i⟩)) :
    layerC X0 X1 X2 (ix2 p q) = layerC A0 A1 A2 i := by
  show X0 (ix2 p q) * X1 (ix2 p (0 : Fin 1)) + X2 (ix2 (0 : Fin 1) q)
    = A0 i * A1 (ix2 ⟨(i 0).val, idx2_lt0 i⟩ (0 : Fin 1)) + A2 (ix2 (0 : Fin 1) ⟨(i 1).val, idx2_lt1 i⟩)
  rw [h0, h1, h2]

/-! ## The stages as a program's vector operations spell them, at an index

  `d` is the dimension-numbers record of a product of an `[n, k]` by a `[k, m]` array contracting the one axis of
  extent `k`; its six facts are those `MatProd.matmul_zero_entry` asks for.  A change of float format is the
  identity on the extended reals and a shape cast to the same shape is the identity. -/

section Spelt
variable {n k m : ℕ}
  (d : DotDims (⟨2, ![n, k]⟩ : Shape) (⟨2, ![k, m]⟩ : Shape) (⟨2, ![n, m]⟩ : Shape))
  (hr : d.contr.rank = 1) (hs : d.contr.size ⟨0, by omega⟩ = k)
  (hl0 : ∀ (j : (⟨2, ![n, m]⟩ : Shape).Idx) (c : d.contr.Idx), (d.lhsIdx j c 0).val = (j 0).val)
  (hl1 : ∀ (j : (⟨2, ![n, m]⟩ : Shape).Idx) (c : d.contr.Idx), (d.lhsIdx j c 1).val = (c ⟨0, by omega⟩).val)
  (hr0 : ∀ (j : (⟨2, ![n, m]⟩ : Shape).Idx) (c : d.contr.Idx), (d.rhsIdx j c 0).val = (c ⟨0, by omega⟩).val)
  (hr1 : ∀ (j : (⟨2, ![n, m]⟩ : Shape).Idx) (c : d.contr.Idx), (d.rhsIdx j c 1).val = (j 1).val)

include hr hs hl0 hl1 hr0 hr1 in
/-- Scale the rows, narrow both operands, multiply onto zero: `layerA`. -/
theorem layerA_spelt (x : FVec Ideal ⟨2, ![n, k]⟩ .f32) (s : FVec Ideal ⟨2, ![n, 1]⟩ .f32) (W : FVec Ideal ⟨2, ![k, m]⟩ .f32)
    (hc : (⟨2, ![n, 1]⟩ : Shape).ShapeCasts ⟨2, ![n, 1]⟩) (hb : (⟨2, ![n, 1]⟩ : Shape).Broadcasts ⟨2, ![n, k]⟩)
    (hbits : FTy.bf16.bits < FTy.f32.bits) (p : Fin n) (q : Fin m) :
    FloatOps.matmul d none
        (truncf .bf16 (mulf x (broadcastTo ⟨2, ![n, k]⟩ (shapeCast ⟨2, ![n, 1]⟩ s hc) hb)) hbits)
        (truncf .bf16 W hbits) (constant (F := Ideal) (⟨2, ![n, m]⟩ : Shape) .f32 0x00000000#32) (ix2 p q)
      = layerA x s W (ix2 p q) := by
  rw [matmul_zero_entry d none hr hs hl0 hl1 hr0 hr1]
  show _ = entry (scaleRows x s) W p q
  unfold entry
  refine Finset.sum_congr rfl fun l _ => ?_
  rw [truncf_apply, truncf_apply, mulf_apply, broadcastTo_a1_ab_apply, shapeCast_self, scaleRows_ix2]

include hr hs hl0 hl1 hr0 hr1 in
/-- Scale the rows, add the bias row, scale the rows again, narrow, multiply onto zero: `layerB`. -/
theorem layerB_spelt (a : FVec Ideal ⟨2, ![n, k]⟩ .f32) (sIn : FVec Ideal ⟨2, ![n, 1]⟩ .f32) (b : FVec Ideal ⟨2, ![1, k]⟩ .f32)
    (sOut : FVec Ideal ⟨2, ![n, 1]⟩ .f32) (W : FVec Ideal ⟨2, ![k, m]⟩ .f32)
    (ha : (⟨2, ![n, k]⟩ : Shape).ShapeCasts ⟨2, ![n, k]⟩)
    (hc : (⟨2, ![n, 1]⟩ : Shape).ShapeCasts ⟨2, ![n, 1]⟩) (hb : (⟨2, ![n, 1]⟩ : Shape).Broadcasts ⟨2, ![n, k]⟩)
    (hc1 : (⟨2, ![1, k]⟩ : Shape).ShapeCasts ⟨2, ![1, k]⟩) (hb1 : (⟨2, ![1, k]⟩ : Shape).Broadcasts ⟨2, ![n, k]⟩)
    (hbits : FTy.bf16.bits < FTy.f32.bits) (p : Fin n) (q : Fin m) :
    FloatOps.matmul d none
        (truncf .bf16 (mulf (addf (mulf (shapeCast ⟨2, ![n, k]⟩ a ha) (broadcastTo ⟨2, ![n, k]⟩ (shapeCast ⟨2, ![n, 1]⟩ sIn hc) hb))
            (broadcastTo ⟨2, ![n, k]⟩ (shapeCast ⟨2, ![1, k]⟩ b hc1) hb1))
          (broadcastTo ⟨2, ![n, k]⟩ (shapeCast ⟨2, ![n, 1]⟩ sOut hc) hb)) hbits)
        (truncf .bf16 W hbits) (constant (F := Ideal) (⟨2, ![n, m]⟩ : Shape) .f32 0x00000000#32) (ix2 p q)
      = layerB a sIn b sOut W (ix2 p q) := by
  rw [matmul_zero_entry d none hr hs hl0 hl1 hr0 hr1]
  show _ = entry (scaleRows (addRow (scaleRows a sIn) b) sOut) W p q
  unfold entry
  refine Finset.sum_congr rfl fun l _ => ?_
  rw [truncf_apply, truncf_apply, mulf_apply, addf_apply, mulf_apply, broadcastTo_a1_ab_apply, broadcastTo_a1_ab_apply,
    broadcastTo_1b_ab_apply, shapeCast_self, shapeCast_self, shapeCast_self, shapeCast_self,
    scaleRows_ix2, addRow_ix2, scaleRows_ix2]

end Spelt

/-- Scale the rows and add the bias row: `layerC`. -/
theorem layerC_spelt {n k : ℕ} (a : FVec Ideal ⟨2, ![n, k]⟩ .f32) (sIn : FVec Ideal ⟨2, ![n, 1]⟩ .f32) (b : FVec Ideal ⟨2, ![1, k]⟩ .f32)
    (ha : (⟨2, ![n, k]⟩ : Shape).ShapeCasts ⟨2, ![n, k]⟩)
    (hc : (⟨2, ![n, 1]⟩ : Shape).ShapeCasts ⟨2, ![n, 1]⟩) (hb : (⟨2, ![n, 1]⟩ : Shape).Broadcasts ⟨2, ![n, k]⟩)
    (hc1 : (⟨2, ![1, k]⟩ : Shape).ShapeCasts ⟨2, ![1, k]⟩) (hb1 : (⟨2, ![1, k]⟩ : Shape).Broadcasts ⟨2, ![n, k]⟩)
    (p : Fin n) (q : Fin k) :
    addf (mulf (shapeCast ⟨2, ![n, k]⟩ a ha) (broadcastTo ⟨2, ![n, k]⟩ (shapeCast ⟨2, ![n, 1]⟩ sIn hc) hb))
        (broadcastTo ⟨2, ![n, k]⟩ (shapeCast ⟨2, ![1, k]⟩ b hc1) hb1) (ix2 p q)
      = layerC a sIn b (ix2 p q) := by
  rw [addf_apply, mulf_apply, broadcastTo_a1_ab_apply, broadcastTo_1b_ab_apply, shapeCast_self, shapeCast_self, shapeCast_self]
  rfl

end GraphConv

end
-- ==== Proof.Region0.lean ====
/-
  The first region: what its result array holds when it ends.

  The region runs the first dense stage on ten blocks of 5000 consecutive rows.  At grid point `t` the body loads rows
  `5000 t … 5000 t + 4999` of the features and of the out-degree column and the whole weight matrix, and stores the
  product of the scaled rows with the weights; the block is written back to the same rows of the result.  Every entry
  of `GraphConv.layerA` depends on one row of the row-indexed operands, so each block written back is the block of
  `layerA` of the three WHOLE arrays as the region finds them, and the ten blocks cover the result.
-/
import proofs.«166579_j30391188586834_1_alg».proof.Proof.Gen.KernelIdeal.Frame
import proofs.«166579_j30391188586834_1_alg».proof.Proof.Dense
import Idealize.ShloMosaic.Lib.Pipeline.Value

set_option maxRecDepth 16384

noncomputable section

namespace Cert.KernelIdeal.Region0

open Cert.KernelIdeal Cert.KernelIdeal.Gen GraphConv
open Idealize.ShloMosaic Idealize.ShloMosaic.TcCoe Idealize.ShloMosaic.ValueIdx Idealize.SL.Sem
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The body's product: which entries of its operands an entry of the result reads -/

/-- The product's dimension numbers: rows by columns, the inner axis of extent 256 contracted. -/
abbrev dd : DotDims S5000x256 S256x64 S5000x64 := dot_S5000x256_S256x64_S5000x64_1_0_0_1_n_n

theorem lhs0 (j : S5000x64.Idx) (q : dd.contr.Idx) : (dd.lhsIdx j q 0).val = (j 0).val := by
  unfold DotDims.lhsIdx
  rw [dif_neg (show ¬(0 : Fin S5000x256.rank) ∈ dd.lhsBatch by decide), dif_pos (show (0 : Fin S5000x256.rank) ∈ dd.lhsNonContracting by decide)]
  rfl
theorem lhs1 (j : S5000x64.Idx) (q : dd.contr.Idx) : (dd.lhsIdx j q 1).val = (q ⟨0, by decide⟩).val :=
  dd.lhsIdx_val_of_single rfl j q
theorem rhs0 (j : S5000x64.Idx) (q : dd.contr.Idx) : (dd.rhsIdx j q 0).val = (q ⟨0, by decide⟩).val :=
  dd.rhsIdx_val_of_single rfl j q
theorem rhs1 (j : S5000x64.Idx) (q : dd.contr.Idx) : (dd.rhsIdx j q 1).val = (j 1).val := by
  unfold DotDims.rhsIdx
  rw [dif_neg (show ¬(1 : Fin S256x64.rank) ∈ dd.rhsBatch by decide), dif_pos (show (1 : Fin S256x64.rank) ∈ dd.rhsNonContracting by decide)]
  rfl

/-- What the body stores, entry by entry: the first dense stage of the three loaded blocks. -/
theorem stored_at (x0 : Vec Ideal S5000x256 .f32) (x1 : Vec Ideal S5000x1 .f32) (x2 : Vec Ideal S256x64 .f32)
    (p : Fin 5000) (q : Fin 64) :
    k0_pay1 x0 x1 x2 (ix2 p q) = layerA x0 x1 x2 (ix2 p q) := by
  unfold k0_pay1
  exact layerA_spelt dd rfl rfl lhs0 lhs1 rhs0 rhs1 x0 x1 x2 _ _ _ p q

/-! ## The index maps over the grid -/

/-- The row-blocked windows (features, out-degree column, result) move together, block `t` at point `t`; the weight
    matrix's one block stays; every window's column block is the first. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks the body loads, entry by entry -/

/-- Entry `(p, l)` of the features' block at point `t` is entry `(5000 t + p, l)` of the array. -/
theorem feats_at (c : Dev nD) (t : Fin cfg0.N) (p : Fin 5000) (l : Fin 256) (r : Fin 50000) (hr : r.val = t.val * 5000 + p.val) :
    (iblk0 V c 0 t : Vec Ideal S5000x256 .f32) (ix2 p l) = (V c main_arg0 : S50000x256.Idx → EReal) (ix2 r l) := by
  obtain ⟨e00, e01, -⟩ := idx_facts t
  unfold iblk0
  rw [View.read_apply]
  show V c main_arg0 _ = V c main_arg0 _
  congr 1
  funext a
  apply Fin.ext
  match a with
  | ⟨0, _⟩ => show win0_0.index t 0 * 5000 + 1 * p.val = r.val; rw [e00, hr]; omega
  | ⟨1, _⟩ => show win0_0.index t 1 * 256 + 1 * l.val = l.val; rw [e01]; omega

/-- Entry `(p, 0)` of the out-degree column's block at point `t` is entry `(5000 t + p, 0)` of the column. -/
theorem col_at (c : Dev nD) (t : Fin cfg0.N) (p : Fin 5000) (r : Fin 50000) (hr : r.val = t.val * 5000 + p.val) :
    (iblk0 V c 1 t : Vec Ideal S5000x1 .f32) (ix2 p (0 : Fin 1)) = (V c main_v11 : S50000x1.Idx → EReal) (ix2 r (0 : Fin 1)) := by
  obtain ⟨-, -, e10, e11, -⟩ := idx_facts t
  unfold iblk0
  rw [View.read_apply]
  show V c main_v11 _ = V c main_v11 _
  congr 1
  funext a
  apply Fin.ext
  match a with
  | ⟨0, _⟩ => show win0_1.index t 0 * 5000 + 1 * p.val = r.val; rw [e10, hr]; omega
  | ⟨1, _⟩ => show win0_1.index t 1 * 1 + 1 * 0 = 0; rw [e11]

/-- The weights' one block is the whole matrix. -/
theorem weights_at (c : Dev nD) (t : Fin cfg0.N) (l : Fin 256) (q : Fin 64) :
    (iblk0 V c 2 t : Vec Ideal S256x64 .f32) (ix2 l q) = (V c main_arg1 : S256x64.Idx → EReal) (ix2 l q) := by
  obtain ⟨-, -, -, -, e20, e21, -⟩ := idx_facts t
  unfold iblk0
  rw [View.read_apply]
  show V c main_arg1 _ = V c main_arg1 _
  congr 1
  funext a
  apply Fin.ext
  match a with
  | ⟨0, _⟩ => show win0_2.index t 0 * 256 + 1 * l.val = l.val; rw [e20]; omega
  | ⟨1, _⟩ => show win0_2.index t 1 * 64 + 1 * q.val = q.val; rw [e21]; omega

/-! ## What a point writes back, the cover, the array -/

/-- The first dense stage of the three arrays as the region finds them. -/
abbrev stage (c : Dev nD) : Buf (Elt Ideal) ((c : Thread nD τ).loc main_v17) :=
  (layerA (V c main_arg0 : Mat 50000 256) (V c main_v11 : Mat 50000 1) (V c main_arg1 : Mat 256 64) : Mat 50000 64)

/-- An entry of what point `t`'s body stores is the stage's entry at the place in the result the block puts it. -/
theorem written_at (c : Dev nD) (t : Fin cfg0.N) (j : S5000x64.Idx) :
    k0_pay1 (iblk0 V c 0 t) (iblk0 V c 1 t) (iblk0 V c 2 t) j = stage V c (((cfg0.win 3).blk t).view.emb j) := by
  obtain ⟨p, q, rfl⟩ : ∃ (p : Fin 5000) (q : Fin 64), j = ix2 p q := ⟨j 0, j 1, eq_ix2 j⟩
  obtain ⟨-, -, -, -, -, -, e30, e31⟩ := idx_facts t
  rw [stored_at]
  have hrow : ((((cfg0.win 3).blk t).view.emb (ix2 p q)) 0).val = t.val * 5000 + p.val := by
    show win0_3.index t 0 * 5000 + 1 * p.val = _
    rw [e30]; omega
  have hcol : ((((cfg0.win 3).blk t).view.emb (ix2 p q)) 1).val = q.val := by
    show win0_3.index t 1 * 64 + 1 * q.val = _
    rw [e31]; omega
  refine layerA_rows _ _ _ _ _ _ p q _ (fun l => ?_) ?_ (fun l => ?_)
  · exact feats_at V c t p l _ hrow
  · exact col_at V c t p _ hrow
  · rw [weights_at V c t l q]
    exact congrArg _ (congrArg (ix2 l) (Fin.ext hcol.symm))

/-- What point `t` writes back is block `t` of the stage. -/
theorem flushed_eq (c : Dev nD) (t : Fin cfg0.N) :
    (dat0 V c).flushed 3 t = ((cfg0.win 3).blk t).view.read (Elt Ideal) (stage V c) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x64) hz]
  funext j
  exact written_at V c t j

/-- An index of the result is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17).slice (win0_3.rect t)).set ↔ _
  rw [View.set_slice_whole, Rect.mem_set_unit]
  exact Iff.rfl

/-- Row `r` of the result is in the block of point `r / 5000`. -/
theorem covered (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨-, -, -, -, -, -, e30, e31⟩ := idx_facts ⟨(i 0).val / 5000, ht⟩
  refine ⟨⟨(i 0).val / 5000, ht⟩, flush0_3 _, ?_⟩
  rw [mem_blk]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val ∧ (i 1).val < win0_3.index ⟨(i 0).val / 5000, ht⟩ 1 * 64 + 64
    rw [e31]; omega

/-- When the region ends its result array holds the first dense stage of the arrays it found. -/
theorem array_after (c : Dev nD) : (dat0 V c).arrAt 3 cfg0.N = stage V c :=
  (dat0 V c).arrAt_eq_of_cover 3 (stage V c) (fun t _ => flushed_eq V c t) covered

end Cert.KernelIdeal.Region0

end
-- ==== Proof.Region1.lean ====
/-
  The second region: what its result array holds when it ends.

  The region runs the middle dense stage on ten blocks of 5000 consecutive rows.  At grid point `t` the body loads rows
  `5000 t … 5000 t + 4999` of the first edge sum, of the in-degree column and of the out-degree column, the whole bias
  row and the whole second weight matrix; it scales the rows by the in-degree factors, adds the bias, scales by the
  out-degree factors and stores the product with the weights; the block is written back to the same rows of the
  result.  Each block written back is the block of `GraphConv.layerB` of the five WHOLE arrays as the region finds
  them, and the ten blocks cover the result.
-/
import proofs.«166579_j30391188586834_1_alg».proof.Proof.Gen.KernelIdeal.Frame
import proofs.«166579_j30391188586834_1_alg».proof.Proof.Dense
import Idealize.ShloMosaic.Lib.Pipeline.Value

set_option maxRecDepth 16384

noncomputable section

namespace Cert.KernelIdeal.Region1

open Cert.KernelIdeal Cert.KernelIdeal.Gen GraphConv
open Idealize.ShloMosaic Idealize.ShloMosaic.TcCoe Idealize.ShloMosaic.ValueIdx Idealize.SL.Sem
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The body's product: which entries of its operands an entry of the result reads -/

/-- The product's dimension numbers: rows by columns, the inner axis of extent 64 contracted. -/
abbrev dd : DotDims S5000x64 S64x32 S5000x32 := dot_S5000x64_S64x32_S5000x32_1_0_0_1_n_n

theorem lhs0 (j : S5000x32.Idx) (q : dd.contr.Idx) : (dd.lhsIdx j q 0).val = (j 0).val := by
  unfold DotDims.lhsIdx
  rw [dif_neg (show ¬(0 : Fin S5000x64.rank) ∈ dd.lhsBatch by decide), dif_pos (show (0 : Fin S5000x64.rank) ∈ dd.lhsNonContracting by decide)]
  rfl
theorem lhs1 (j : S5000x32.Idx) (q : dd.contr.Idx) : (dd.lhsIdx j q 1).val = (q ⟨0, by decide⟩).val :=
  dd.lhsIdx_val_of_single rfl j q
theorem rhs0 (j : S5000x32.Idx) (q : dd.contr.Idx) : (dd.rhsIdx j q 0).val = (q ⟨0, by decide⟩).val :=
  dd.rhsIdx_val_of_single rfl j q
theorem rhs1 (j : S5000x32.Idx) (q : dd.contr.Idx) : (dd.rhsIdx j q 1).val = (j 1).val := by
  unfold DotDims.rhsIdx
  rw [dif_neg (show ¬(1 : Fin S64x32.rank) ∈ dd.rhsBatch by decide), dif_pos (show (1 : Fin S64x32.rank) ∈ dd.rhsNonContracting by decide)]
  rfl

/-- What the body stores, entry by entry: the middle dense stage of the five loaded blocks. -/
theorem stored_at (x0 : Vec Ideal S5000x64 .f32) (x1 : Vec Ideal S5000x1 .f32) (x2 : Vec Ideal S1x64 .f32)
    (x3 : Vec Ideal S5000x1 .f32) (x4 : Vec Ideal S64x32 .f32) (p : Fin 5000) (q : Fin 32) :
    k1_pay1 x0 x1 x2 x3 x4 (ix2 p q) = layerB x0 x1 x2 x3 x4 (ix2 p q) := by
  unfold k1_pay1
  exact layerB_spelt dd rfl rfl lhs0 lhs1 rhs0 rhs1 x0 x1 x2 x3 x4 _ _ _ _ _ _ p q

/-! ## The index maps over the grid -/

/-- The row-blocked windows (edge sum, the two degree columns, result) move together, block `t` at point `t`; the
    bias row's and the weight matrix's one block stay; every window's column block is the first. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The blocks the body loads, entry by entry -/

/-- Entry `(p, l)` of the edge sum's block at point `t` is entry `(5000 t + p, l)` of the array. -/
theorem sum_at (c : Dev nD) (t : Fin cfg1.N) (p : Fin 5000) (l : Fin 64) (r : Fin 50000) (hr : r.val = t.val * 5000 + p.val) :
    (iblk1 V c 0 t : Vec Ideal S5000x64 .f32) (ix2 p l) = (V c main_v27 : S50000x64.Idx → EReal) (ix2 r l) := by
  obtain ⟨e00, e01, -⟩ := idx_facts t
  unfold iblk1
  rw [View.read_apply]
  show V c main_v27 _ = V c main_v27 _
  congr 1
  funext a
  apply Fin.ext
  match a with
  | ⟨0, _⟩ => show win1_0.index t 0 * 5000 + 1 * p.val = r.val; rw [e00, hr]; omega
  | ⟨1, _⟩ => show win1_0.index t 1 * 64 + 1 * l.val = l.val; rw [e01]; omega

/-- Entry `(p, 0)` of the in-degree column's block at point `t` is entry `(5000 t + p, 0)` of the column. -/
theorem colIn_at (c : Dev nD) (t : Fin cfg1.N) (p : Fin 5000) (r : Fin 50000) (hr : r.val = t.val * 5000 + p.val) :
    (iblk1 V c 1 t : Vec Ideal S5000x1 .f32) (ix2 p (0 : Fin 1)) = (V c main_v16 : S50000x1.Idx → EReal) (ix2 r (0 : Fin 1)) := by
  obtain ⟨-, -, e10, e11, -⟩ := idx_facts t
  unfold iblk1
  rw [View.read_apply]
  show V c main_v16 _ = V c main_v16 _
  congr 1
  funext a
  apply Fin.ext
  match a with
  | ⟨0, _⟩ => show win1_1.index t 0 * 5000 + 1 * p.val = r.val; rw [e10, hr]; omega
  | ⟨1, _⟩ => show win1_1.index t 1 * 1 + 1 * 0 = 0; rw [e11]

/-- The bias row's one block is the whole row. -/
theorem bias_at (c : Dev nD) (t : Fin cfg1.N) (l : Fin 64) :
    (iblk1 V c 2 t : Vec Ideal S1x64 .f32) (ix2 (0 : Fin 1) l) = (V c main_v28 : S1x64.Idx → EReal) (ix2 (0 : Fin 1) l) := by
  obtain ⟨-, -, -, -, e20, e21, -⟩ := idx_facts t
  unfold iblk1
  rw [View.read_apply]
  show V c main_v28 _ = V c main_v28 _
  congr 1
  funext a
  apply Fin.ext
  match a with
  | ⟨0, _⟩ => show win1_2.index t 0 * 1 + 1 * 0 = 0; rw [e20]
  | ⟨1, _⟩ => show win1_2.index t 1 * 64 + 1 * l.val = l.val; rw [e21]; omega

/-- Entry `(p, 0)` of the out-degree column's block at point `t` is entry `(5000 t + p, 0)` of the column. -/
theorem colOut_at (c : Dev nD) (t : Fin cfg1.N) (p : Fin 5000) (r : Fin 50000) (hr : r.val = t.val * 5000 + p.val) :
    (iblk1 V c 3 t : Vec Ideal S5000x1 .f32) (ix2 p (0 : Fin 1)) = (V c main_v11 : S50000x1.Idx → EReal) (ix2 r (0 : Fin 1)) := by
  obtain ⟨-, -, -, -, -, -, e30, e31, -⟩ := idx_facts t
  unfold iblk1
  rw [View.read_apply]
  show V c main_v11 _ = V c main_v11 _
  congr 1
  funext a
  apply Fin.ext
  match a with
  | ⟨0, _⟩ => show win1_3.index t 0 * 5000 + 1 * p.val = r.val; rw [e30, hr]; omega
  | ⟨1, _⟩ => show win1_3.index t 1 * 1 + 1 * 0 = 0; rw [e31]

/-- The weights' one block is the whole matrix. -/
theorem weights_at (c : Dev nD) (t : Fin cfg1.N) (l : Fin 64) (q : Fin 32) :
    (iblk1 V c 4 t : Vec Ideal S64x32 .f32) (ix2 l q) = (V c main_arg3 : S64x32.Idx → EReal) (ix2 l q) := by
  obtain ⟨-, -, -, -, -, -, -, -, e40, e41, -⟩ := idx_facts t
  unfold iblk1
  rw [View.read_apply]
  show V c main_arg3 _ = V c main_arg3 _
  congr 1
  funext a
  apply Fin.ext
  match a with
  | ⟨0, _⟩ => show win1_4.index t 0 * 64 + 1 * l.val = l.val; rw [e40]; omega
  | ⟨1, _⟩ => show win1_4.index t 1 * 32 + 1 * q.val = q.val; rw [e41]; omega

/-! ## What a point writes back, the cover, the array -/

/-- The middle dense stage of the five arrays as the region finds them. -/
abbrev stage (c : Dev nD) : Buf (Elt Ideal) ((c : Thread nD τ).loc main_v29) :=
  (layerB (V c main_v27 : Mat 50000 64) (V c main_v16 : Mat 50000 1) (V c main_v28 : Mat 1 64) (V c main_v11 : Mat 50000 1)
    (V c main_arg3 : Mat 64 32) : Mat 50000 32)

/-- An entry of what point `t`'s body stores is the stage's entry at the place in the result the block puts it. -/
theorem written_at (c : Dev nD) (t : Fin cfg1.N) (j : S5000x32.Idx) :
    k1_pay1 (iblk1 V c 0 t) (iblk1 V c 1 t) (iblk1 V c 2 t) (iblk1 V c 3 t) (iblk1 V c 4 t) j
      = stage V c (((cfg1.win 5).blk t).view.emb j) := by
  obtain ⟨p, q, rfl⟩ : ∃ (p : Fin 5000) (q : Fin 32), j = ix2 p q := ⟨j 0, j 1, eq_ix2 j⟩
  obtain ⟨-, -, -, -, -, -, -, -, -, -, e50, e51⟩ := idx_facts t
  rw [stored_at]
  have hrow : ((((cfg1.win 5).blk t).view.emb (ix2 p q)) 0).val = t.val * 5000 + p.val := by
    show win1_5.index t 0 * 5000 + 1 * p.val = _
    rw [e50]; omega
  have hcol : ((((cfg1.win 5).blk t).view.emb (ix2 p q)) 1).val = q.val := by
    show win1_5.index t 1 * 32 + 1 * q.val = _
    rw [e51]; omega
  refine layerB_rows _ _ _ _ _ _ _ _ _ _ p q _ (fun l => ?_) ?_ (fun l => ?_) ?_ (fun l => ?_)
  · exact sum_at V c t p l _ hrow
  · exact colIn_at V c t p _ hrow
  · exact bias_at V c t l
  · exact colOut_at V c t p _ hrow
  · rw [weights_at V c t l q]
    exact congrArg _ (congrArg (ix2 l) (Fin.ext hcol.symm))

/-- What point `t` writes back is block `t` of the stage. -/
theorem flushed_eq (c : Dev nD) (t : Fin cfg1.N) :
    (dat1 V c).flushed 5 t = ((cfg1.win 5).blk t).view.read (Elt Ideal) (stage V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz,
    View.ld_unit_zero (S := S64x32) hz]
  funext j
  exact written_at V c t j

/-- An index of the result is in point `t`'s block iff each coordinate is in the block's range on its axis. -/
theorem mem_blk (t : Fin cfg1.N) (i : S50000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v29).slice (win1_5.rect t)).set ↔ _
  rw [View.set_slice_whole, Rect.mem_set_unit]
  exact Iff.rfl

/-- Row `r` of the result is in the block of point `r / 5000`. -/
theorem covered (i : S50000x32.Idx) : ∃ t : Fin cfg1.N, (cfg1.win 5).flush t = true ∧ i ∈ ((cfg1.win 5).blk t).view.set := by
  have hi0 : (i 0).val < 50000 := (i 0).isLt
  have hi1 : (i 1).val < 32 := (i 1).isLt
  have hN : cfg1.N = 10 := N_1
  have ht : (i 0).val / 5000 < cfg1.N := by rw [hN]; omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ 1 * 32 ≤ (i 1).val ∧ (i 1).val < win1_5.index ⟨(i 0).val / 5000, ht⟩ 1 * 32 + 32
    rw [e51]; omega

/-- When the region ends its result array holds the middle dense stage of the arrays it found. -/
theorem array_after (c : Dev nD) : (dat1 V c).arrAt 5 cfg1.N = stage V c :=
  (dat1 V c).arrAt_eq_of_cover 5 (stage V c) (fun t _ => flushed_eq V c t) covered

end Cert.KernelIdeal.Region1

end
-- ==== Proof.Region2.lean ====
/-
  The third region: what its result array holds when it ends.

  The region runs the last stage on ten blocks of 5000 consecutive rows.  At grid point `t` the body loads rows
  `5000 t … 5000 t + 4999` of the second edge sum and of the in-degree column and the whole bias row, scales the rows
  and adds the bias; the block is written back to the same rows of the result.  Each block written back is the block of
  `GraphConv.layerC` of the three WHOLE arrays as the region finds them, and the ten blocks cover the result.
-/
import proofs.«166579_j30391188586834_1_alg».proof.Proof.Gen.KernelIdeal.Frame
import proofs.«166579_j30391188586834_1_alg».proof.Proof.Dense
import Idealize.ShloMosaic.Lib.Pipeline.Value

set_option maxRecDepth 16384

noncomputable section

namespace Cert.KernelIdeal.Region2

open Cert.KernelIdeal Cert.KernelIdeal.Gen GraphConv
open Idealize.ShloMosaic Idealize.ShloMosaic.TcCoe Idealize.ShloMosaic.ValueIdx Idealize.SL.Sem
open Idealize.ShloMosaic.Pipeline (Dat)

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- What the body stores, entry by entry: the last stage of the three loaded blocks. -/
theorem stored_at (x0 : Vec Ideal S5000x32 .f32) (x1 : Vec Ideal S5000x1 .f32) (x2 : Vec Ideal S1x32 .f32)
    (p : Fin 5000) (q : Fin 32) :
    k2_pay1 x0 x1 x2 (ix2 p q) = layerC x0 x1 x2 (ix2 p q) := by
  unfold k2_pay1
  exact layerC_spelt x0 x1 x2 _ _ _ _ _ p q

/-! ## The index maps over the grid -/

/-- The row-blocked windows (edge sum, in-degree column, result) move together, block `t` at point `t`; the bias
    row's one block stays; every window's column block is the first. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## The blocks the body loads, entry by entry -/

/-- Entry `(p, q)` of the edge sum's block at point `t` is entry `(5000 t + p, q)` of the array. -/
theorem sum_at (c : Dev nD) (t : Fin cfg2.N) (p : Fin 5000) (q : Fin 32) (i : S50000x32.Idx)
    (h0 : (i 0).val = t.val * 5000 + p.val) (h1 : (i 1).val = q.val) :
    (iblk2 V c 0 t : Vec Ideal S5000x32 .f32) (ix2 p q) = (V c main_v39 : S50000x32.Idx → EReal) i := by
  obtain ⟨e00, e01, -⟩ := idx_facts t
  unfold iblk2
  rw [View.read_apply]
  show V c main_v39 _ = V c main_v39 _
  congr 1
  funext a
  apply Fin.ext
  match a with
  | ⟨0, _⟩ => show win2_0.index t 0 * 5000 + 1 * p.val = (i 0).val; rw [e00, h0]; omega
  | ⟨1, _⟩ => show win2_0.index t 1 * 32 + 1 * q.val = (i 1).val; rw [e01, h1]; omega

/-- Entry `(p, 0)` of the in-degree column's block at point `t` is entry `(5000 t + p, 0)` of the column. -/
theorem colIn_at (c : Dev nD) (t : Fin cfg2.N) (p : Fin 5000) (r : Fin 50000) (hr : r.val = t.val * 5000 + p.val) :
    (iblk2 V c 1 t : Vec Ideal S5000x1 .f32) (ix2 p (0 : Fin 1)) = (V c main_v16 : S50000x1.Idx → EReal) (ix2 r (0 : Fin 1)) := by
  obtain ⟨-, -, e10, e11, -⟩ := idx_facts t
  unfold iblk2
  rw [View.read_apply]
  show V c main_v16 _ = V c main_v16 _
  congr 1
  funext a
  apply Fin.ext
  match a with
  | ⟨0, _⟩ => show win2_1.index t 0 * 5000 + 1 * p.val = r.val; rw [e10, hr]; omega
  | ⟨1, _⟩ => show win2_1.index t 1 * 1 + 1 * 0 = 0; rw [e11]

/-- The bias row's one block is the whole row. -/
theorem bias_at (c : Dev nD) (t : Fin cfg2.N) (l r : Fin 32) (hr : r.val = l.val) :
    (iblk2 V c 2 t : Vec Ideal S1x32 .f32) (ix2 (0 : Fin 1) l) = (V c main_v40 : S1x32.Idx → EReal) (ix2 (0 : Fin 1) r) := by
  obtain ⟨-, -, -, -, e20, e21, -⟩ := idx_facts t
  unfold iblk2
  rw [View.read_apply]
  show V c main_v40 _ = V c main_v40 _
  congr 1
  funext a
  apply Fin.ext
  match a with
  | ⟨0, _⟩ => show win2_2.index t 0 * 1 + 1 * 0 = 0; rw [e20]
  | ⟨1, _⟩ => show win2_2.index t 1 * 32 + 1 * l.val = r.val; rw [e21, hr]; omega

/-! ## What a point writes back, the cover, the array -/

/-- The last stage of the three arrays as the region finds them. -/
abbrev stage (c : Dev nD) : Buf (Elt Ideal) ((c : Thread nD τ).loc main_v41) :=
  (layerC (V c main_v39 : Mat 50000 32) (V c main_v16 : Mat 50000 1) (V c main_v40 : Mat 1 32) : Mat 50000 32)

/-- An entry of what point `t`'s body stores is the stage's entry at the place in the result the block puts it. -/
theorem written_at (c : Dev nD) (t : Fin cfg2.N) (j : S5000x32.Idx) :
    k2_pay1 (iblk2 V c 0 t) (iblk2 V c 1 t) (iblk2 V c 2 t) j = stage V c (((cfg2.win 3).blk t).view.emb j) := by
  obtain ⟨p, q, rfl⟩ : ∃ (p : Fin 5000) (q : Fin 32), j = ix2 p q := ⟨j 0, j 1, eq_ix2 j⟩
  obtain ⟨-, -, -, -, -, -, e30, e31⟩ := idx_facts t
  rw [stored_at]
  have hrow : ((((cfg2.win 3).blk t).view.emb (ix2 p q)) 0).val = t.val * 5000 + p.val := by
    show win2_3.index t 0 * 5000 + 1 * p.val = _
    rw [e30]; omega
  have hcol : ((((cfg2.win 3).blk t).view.emb (ix2 p q)) 1).val = q.val := by
    show win2_3.index t 1 * 32 + 1 * q.val = _
    rw [e31]; omega
  refine layerC_rows _ _ _ _ _ _ p q _ ?_ ?_ ?_
  · exact sum_at V c t p q _ hrow hcol
  · exact colIn_at V c t p _ hrow
  · exact bias_at V c t q _ hcol

/-- What point `t` writes back is block `t` of the stage. -/
theorem flushed_eq (c : Dev nD) (t : Fin cfg2.N) :
    (dat2 V c).flushed 3 t = ((cfg2.win 3).blk t).view.read (Elt Ideal) (stage V c) := by
  show (cfg2.win 3).cut (grid2.coords t) ((dat2 V c).after 3 t) = _
  rw [after2_3]
  unfold out2_3
  rw [View.canon_unit_zero hz]
  simp only [View.ld_unit_zero (S := S5000x32) hz, View.ld_unit_zero (S := S5000x1) hz, View.ld_unit_zero (S := S1x32) hz]
  funext j
  exact written_at V c t j

/-- An index of the result is in point `t`'s block iff each coordinate is in the block's range on its axis. -/
theorem mem_blk (t : Fin cfg2.N) (i : S50000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v41).slice (win2_3.rect t)).set ↔ _
  rw [View.set_slice_whole, Rect.mem_set_unit]
  exact Iff.rfl

/-- Row `r` of the result is in the block of point `r / 5000`. -/
theorem covered (i : S50000x32.Idx) : ∃ t : Fin cfg2.N, (cfg2.win 3).flush t = true ∧ i ∈ ((cfg2.win 3).blk t).view.set := by
  have hi0 : (i 0).val < 50000 := (i 0).isLt
  have hi1 : (i 1).val < 32 := (i 1).isLt
  have hN : cfg2.N = 10 := N_2
  have ht : (i 0).val / 5000 < cfg2.N := by rw [hN]; omega
  obtain ⟨-, -, -, -, -, -, e30, e31⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ 0 * 5000 ≤ (i 0).val ∧ (i 0).val < win2_3.index ⟨(i 0).val / 5000, ht⟩ 0 * 5000 + 5000
    rw [e30]; show (i 0).val / 5000 * 5000 ≤ (i 0).val ∧ (i 0).val < (i 0).val / 5000 * 5000 + 5000; omega
  | ⟨1, _⟩ =>
    show win2_3.index ⟨(i 0).val / 5000, ht⟩ 1 * 32 ≤ (i 1).val ∧ (i 1).val < win2_3.index ⟨(i 0).val / 5000, ht⟩ 1 * 32 + 32
    rw [e31]; omega

/-- When the region ends its result array holds the last stage of the arrays it found. -/
theorem array_after (c : Dev nD) : (dat2 V c).arrAt 3 cfg2.N = stage V c :=
  (dat2 V c).arrAt_eq_of_cover 3 (stage V c) (fun t _ => flushed_eq V c t) covered

end Cert.KernelIdeal.Region2

end
-- ==== Proof.Graph.lean ====
/-
  The parts of the graph convolution that both programs spell with the same host operations, named once.

  `degFactor e` is, for each of the 50000 nodes, the number of entries of the edge-end list `e` equal to the node
  (a scatter of ones), clamped below by one, to the power −1/2.  `edgeSum h src dst` sums, for each node `v`, the rows
  `h[src[e]]` over the edges `e` with `dst[e] = v` (a gather of rows along the edges — a negative source index is
  first shifted by the number of nodes — then a scatter-add of the gathered rows).  Neither is ever opened: the two
  programs apply these same operations, and what is proved about them is only that the idealized kernel's spelling and
  the idealized reference's spelling are the same terms.  (`RowCol.colOf` and `RowCol.rowOf` view a vector as a
  one-column and as a one-row array; a reshape and a broadcast along a new unit axis both compute them.)
-/
import proofs.«166579_j30391188586834_1_alg».proof.Proof.Gen.KernelIdeal
import proofs.«166579_j30391188586834_1_alg».proof.Proof.Gen.ReferenceIdeal
import proofs.«166579_j30391188586834_1_alg».proof.Proof.Dense

noncomputable section

namespace Cert.Graph

open Idealize.ShloMosaic Idealize.ShloMosaic.TcCoe Idealize.ShloMosaic.ValueIdx GraphConv RowCol
open Cert.ReferenceIdeal Cert.ReferenceIdeal.Facts₀

/-- A list of 800000 node numbers, one per edge. -/
abbrev Edges : Type := (⟨S800000, .i32⟩ : BufTy).Contents (Elt Ideal)

/-! ## The degree factor and the edge sums, in the reference's spelling -/

/-- Per node: (the number of entries of `e` equal to the node, at least one) to the power −1/2. -/
def degFactor (e : Edges) : FVec Ideal S50000 .f32 :=
  Host.powf (F := Ideal)
    (maximumf (F := Ideal)
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 e)
        (broadcastInDim S800000 ![] bcast_S_S800000 (constant (F := Ideal) S_ .f32 0x3F800000#32)))
      (broadcastInDim S50000 ![] bcast_S_S50000 (constant (F := Ideal) S_ .f32 0x3F800000#32)))
    (broadcastInDim S50000 ![] bcast_S_S50000 (constant (F := Ideal) S_ .f32 0xBF000000#32))

/-- The source node of every edge, a negative number first shifted by the number of nodes, as a one-column array. -/
def sources (src : Edges) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Rows of width 64 summed along the edges into their destination nodes. -/
def edgeSum64 (h : FVec Ideal S50000x64 .f32) (src dst : Edges) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (Host.gather gather_S50000x64_S800000x1_S800000x64_1_0_n_n_0_1_164 h (sources src))

/-- Rows of width 32 summed along the edges into their destination nodes. -/
def edgeSum32 (h : FVec Ideal S50000x32 .f32) (src dst : Edges) : FVec Ideal S50000x32 .f32 :=
  Host.scatterAdd (F := Ideal) scatter_S50000x32_S800000x1_S800000x32_1_0_0_1
    (broadcastInDim S50000x32 ![] bcast_S_S50000x32 (constant (F := Ideal) S_ .f32 0x00000000#32))
    (broadcastInDim S800000x1 ![0] bcast_S800000_S800000x1_0 dst)
    (Host.gather gather_S50000x32_S800000x1_S800000x32_1_0_n_n_0_1_132 h (sources src))

/-! ## The whole computation -/

/-- The two-layer graph convolution of the seven argument arrays: the three dense stages around the two edge sums. -/
def gcn (x : Mat 50000 256) (W1 : Mat 256 64) (b1 : (⟨1, ![64]⟩ : Shape).Idx → EReal) (W2 : Mat 64 32)
    (b2 : (⟨1, ![32]⟩ : Shape).Idx → EReal) (src dst : Edges) : Mat 50000 32 :=
  layerC
    (edgeSum32
      (layerB (edgeSum64 (layerA x (colOf (degFactor src)) W1) src dst) (colOf (degFactor dst)) (rowOf b1)
        (colOf (degFactor src)) W2)
      src dst)
    (colOf (degFactor dst)) (rowOf b2)

/-! ## The kernel program's spelling of the same operations -/

section KernelSpelling
open Cert.KernelIdeal in
/-- The kernel program's degree factor is the same term. -/
theorem kernel_degFactor (e : Edges) :
    Host.powf (F := Ideal)
      (maximumf (F := Ideal)
        (Host.scatterAdd (F := Ideal) Cert.KernelIdeal.scatter_S50000_S800000x1_S800000_n_0_0_1
          (broadcastInDim Cert.KernelIdeal.S50000 ![] Cert.KernelIdeal.Facts₀.bcast_S_S50000 (constant (F := Ideal) Cert.KernelIdeal.S_ .f32 0x00000000#32))
          (broadcastInDim Cert.KernelIdeal.S800000x1 ![0] Cert.KernelIdeal.Facts₀.bcast_S800000_S800000x1_0 e)
          (broadcastInDim Cert.KernelIdeal.S800000 ![] Cert.KernelIdeal.Facts₀.bcast_S_S800000 (constant (F := Ideal) Cert.KernelIdeal.S_ .f32 0x3F800000#32)))
        (broadcastInDim Cert.KernelIdeal.S50000 ![] Cert.KernelIdeal.Facts₀.bcast_S_S50000 (constant (F := Ideal) Cert.KernelIdeal.S_ .f32 0x3F800000#32)))
      (broadcastInDim Cert.KernelIdeal.S50000 ![] Cert.KernelIdeal.Facts₀.bcast_S_S50000 (constant (F := Ideal) Cert.KernelIdeal.S_ .f32 0xBF000000#32))
    = degFactor e := rfl

/-- The kernel program's edge sum of rows of width 64 is the same term. -/
theorem kernel_edgeSum64 (h : FVec Ideal S50000x64 .f32) (src dst : Edges) :
    Host.scatterAdd (F := Ideal) Cert.KernelIdeal.scatter_S50000x64_S800000x1_S800000x64_1_0_0_1
      (broadcastInDim Cert.KernelIdeal.S50000x64 ![] Cert.KernelIdeal.Facts₀.bcast_S_S50000x64 (constant (F := Ideal) Cert.KernelIdeal.S_ .f32 0x00000000#32))
      (broadcastInDim Cert.KernelIdeal.S800000x1 ![0] Cert.KernelIdeal.Facts₀.bcast_S800000_S800000x1_0 dst)
      (Host.gather Cert.KernelIdeal.gather_S50000x64_S800000x1_S800000x64_1_0_n_n_0_1_164 h
        (broadcastInDim Cert.KernelIdeal.S800000x1 ![0] Cert.KernelIdeal.Facts₀.bcast_S800000_S800000x1_0
          (select (cmpi .slt src (broadcastInDim Cert.KernelIdeal.S800000 ![] Cert.KernelIdeal.Facts₀.bcast_S_S800000 (constantI Cert.KernelIdeal.S_ 32 0#32)))
            (addi src (broadcastInDim Cert.KernelIdeal.S800000 ![] Cert.KernelIdeal.Facts₀.bcast_S_S800000 (constantI Cert.KernelIdeal.S_ 32 50000#32))) src)))
    = edgeSum64 h src dst := rfl

/-- The kernel program's edge sum of rows of width 32 is the same term. -/
theorem kernel_edgeSum32 (h : FVec Ideal S50000x32 .f32) (src dst : Edges) :
    Host.scatterAdd (F := Ideal) Cert.KernelIdeal.scatter_S50000x32_S800000x1_S800000x32_1_0_0_1
      (broadcastInDim Cert.KernelIdeal.S50000x32 ![] Cert.KernelIdeal.Facts₀.bcast_S_S50000x32 (constant (F := Ideal) Cert.KernelIdeal.S_ .f32 0x00000000#32))
      (broadcastInDim Cert.KernelIdeal.S800000x1 ![0] Cert.KernelIdeal.Facts₀.bcast_S800000_S800000x1_0 dst)
      (Host.gather Cert.KernelIdeal.gather_S50000x32_S800000x1_S800000x32_1_0_n_n_0_1_132 h
        (broadcastInDim Cert.KernelIdeal.S800000x1 ![0] Cert.KernelIdeal.Facts₀.bcast_S800000_S800000x1_0
          (select (cmpi .slt src (broadcastInDim Cert.KernelIdeal.S800000 ![] Cert.KernelIdeal.Facts₀.bcast_S_S800000 (constantI Cert.KernelIdeal.S_ 32 0#32)))
            (addi src (broadcastInDim Cert.KernelIdeal.S800000 ![] Cert.KernelIdeal.Facts₀.bcast_S_S800000 (constantI Cert.KernelIdeal.S_ 32 50000#32))) src)))
    = edgeSum32 h src dst := rfl

end KernelSpelling

end Cert.Graph

end
-- ==== Proof.KernelValue.lean ====
/-
  The idealized kernel program's result is the graph convolution `Cert.Graph.gcn` of its seven arguments.

  The run ends with the result buffer at the last stage of a fold through the program's six segments.  Reading it
  back: the third region leaves `layerC` of the arrays it found (`Region2`); of those the edge sum was written by the
  host operations before it from the second region's result, which is `layerB` of the arrays THAT region found
  (`Region1`); of those the edge sum was written from the first region's result, `layerA` of the arrays it found
  (`Region0`).  The degree columns are written once, before the first region, and only read afterwards; the bias rows
  are reshapes of arguments; the arguments are never written.  Each buffer is followed through the fold by what writes
  it: a host operation (its result), a region's output window (the region's value), nothing (it keeps its contents).
-/
import proofs.«166579_j30391188586834_1_alg».proof.Proof.Gen.KernelIdeal.Frame
import proofs.«166579_j30391188586834_1_alg».proof.Proof.Region0
import proofs.«166579_j30391188586834_1_alg».proof.Proof.Region1
import proofs.«166579_j30391188586834_1_alg».proof.Proof.Region2
import proofs.«166579_j30391188586834_1_alg».proof.Proof.Graph
import Idealize.ShloMosaic.Lib.StableHlo.Run

set_option maxRecDepth 16384

noncomputable section

namespace Cert.KernelIdeal.KValue

open Cert.KernelIdeal Cert.KernelIdeal.Gen Cert.Graph GraphConv RowCol
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The arguments at launch -/

/-- The features. -/
abbrev X0 : Mat 50000 256 := m ((c : Thread nD τ).loc main_arg0)
/-- The first weight matrix. -/
abbrev X1 : Mat 256 64 := m ((c : Thread nD τ).loc main_arg1)
/-- The first bias. -/
abbrev X2 : (⟨1, ![64]⟩ : Shape).Idx → EReal := m ((c : Thread nD τ).loc main_arg2)
/-- The second weight matrix. -/
abbrev X3 : Mat 64 32 := m ((c : Thread nD τ).loc main_arg3)
/-- The second bias. -/
abbrev X4 : (⟨1, ![32]⟩ : Shape).Idx → EReal := m ((c : Thread nD τ).loc main_arg4)
/-- The edges' source nodes. -/
abbrev X5 : Edges := m ((c : Thread nD τ).loc main_arg5)
/-- The edges' destination nodes. -/
abbrev X6 : Edges := m ((c : Thread nD τ).loc main_arg6)

/-! ## After the host operations before the first region -/

theorem W1_arg0 : W1 m ρ c (Proc.devRef .tc main_arg0) = X0 m c := by
  show StableHlo.after hostOps0 (W0 m ρ c) (Proc.devRef .tc main_arg0) = _
  dsimp only [hostOps0]
  after_results <;> rfl
theorem W1_arg1 : W1 m ρ c (Proc.devRef .tc main_arg1) = X1 m c := by
  show StableHlo.after hostOps0 (W0 m ρ c) (Proc.devRef .tc main_arg1) = _
  dsimp only [hostOps0]
  after_results <;> rfl
theorem W1_arg2 : W1 m ρ c (Proc.devRef .tc main_arg2) = X2 m c := by
  show StableHlo.after hostOps0 (W0 m ρ c) (Proc.devRef .tc main_arg2) = _
  dsimp only [hostOps0]
  after_results <;> rfl
theorem W1_arg3 : W1 m ρ c (Proc.devRef .tc main_arg3) = X3 m c := by
  show StableHlo.after hostOps0 (W0 m ρ c) (Proc.devRef .tc main_arg3) = _
  dsimp only [hostOps0]
  after_results <;> rfl
theorem W1_arg4 : W1 m ρ c (Proc.devRef .tc main_arg4) = X4 m c := by
  show StableHlo.after hostOps0 (W0 m ρ c) (Proc.devRef .tc main_arg4) = _
  dsimp only [hostOps0]
  after_results <;> rfl
theorem W1_arg5 : W1 m ρ c (Proc.devRef .tc main_arg5) = X5 m c := by
  show StableHlo.after hostOps0 (W0 m ρ c) (Proc.devRef .tc main_arg5) = _
  dsimp only [hostOps0]
  after_results <;> rfl
theorem W1_arg6 : W1 m ρ c (Proc.devRef .tc main_arg6) = X6 m c := by
  show StableHlo.after hostOps0 (W0 m ρ c) (Proc.devRef .tc main_arg6) = _
  dsimp only [hostOps0]
  after_results <;> rfl

/-- The out-degree column: the factors of the source list, as one column. -/
theorem W1_colOut : W1 m ρ c (Proc.devRef .tc main_v11) = (colOf (degFactor (X5 m c)) : Mat 50000 1) := by
  show StableHlo.after hostOps0 (W0 m ρ c) (Proc.devRef .tc main_v11) = _
  dsimp only [hostOps0]
  after_results
  exact (shapeCast_col _ _).trans (congrArg colOf (kernel_degFactor _))

/-- The in-degree column: the factors of the destination list, as one column. -/
theorem W1_colIn : W1 m ρ c (Proc.devRef .tc main_v16) = (colOf (degFactor (X6 m c)) : Mat 50000 1) := by
  show StableHlo.after hostOps0 (W0 m ρ c) (Proc.devRef .tc main_v16) = _
  dsimp only [hostOps0]
  after_results
  exact (shapeCast_col _ _).trans (congrArg colOf (kernel_degFactor _))

/-! ## After the first region -/

/-- The first region's result: the stage before the first edge sum. -/
theorem W2_first : W2 m ρ c (Proc.devRef .tc main_v17)
    = (layerA (X0 m c) (colOf (degFactor (X5 m c))) (X1 m c) : Mat 50000 64) := by
  refine ((W2_arr m ρ c 3).trans (Region0.array_after (V1 m ρ) c)).trans ?_
  show (layerA (W1 m ρ c (Proc.devRef .tc main_arg0) : Mat 50000 256) (W1 m ρ c (Proc.devRef .tc main_v11) : Mat 50000 1)
    (W1 m ρ c (Proc.devRef .tc main_arg1) : Mat 256 64) : Mat 50000 64) = _
  rw [W1_arg0, W1_colOut, W1_arg1]

/-- The out-degree column is an input of the first region: it keeps its contents. -/
theorem W2_colOut : W2 m ρ c (Proc.devRef .tc main_v11) = (colOf (degFactor (X5 m c)) : Mat 50000 1) :=
  ((W2_arr m ρ c 1).trans (((dat0 (V1 m ρ) c).arrAt_in 1 rfl _).trans (A_eq0 (V1 m ρ) c 1))).trans (W1_colOut m ρ c)

theorem W2_colIn : W2 m ρ c (Proc.devRef .tc main_v16) = (colOf (degFactor (X6 m c)) : Mat 50000 1) :=
  (W2_of_ne m ρ c main_v16 (by decide)).trans (W1_colIn m ρ c)
theorem W2_arg2 : W2 m ρ c (Proc.devRef .tc main_arg2) = X2 m c := (W2_of_ne m ρ c main_arg2 (by decide)).trans (W1_arg2 m ρ c)
theorem W2_arg3 : W2 m ρ c (Proc.devRef .tc main_arg3) = X3 m c := (W2_of_ne m ρ c main_arg3 (by decide)).trans (W1_arg3 m ρ c)
theorem W2_arg4 : W2 m ρ c (Proc.devRef .tc main_arg4) = X4 m c := (W2_of_ne m ρ c main_arg4 (by decide)).trans (W1_arg4 m ρ c)
theorem W2_arg5 : W2 m ρ c (Proc.devRef .tc main_arg5) = X5 m c := (W2_of_ne m ρ c main_arg5 (by decide)).trans (W1_arg5 m ρ c)
theorem W2_arg6 : W2 m ρ c (Proc.devRef .tc main_arg6) = X6 m c := (W2_of_ne m ρ c main_arg6 (by decide)).trans (W1_arg6 m ρ c)

/-! ## After the host operations before the second region -/

/-- The first edge sum. -/
theorem W3_sum : W3 m ρ c (Proc.devRef .tc main_v27)
    = edgeSum64 (layerA (X0 m c) (colOf (degFactor (X5 m c))) (X1 m c) : Mat 50000 64) (X5 m c) (X6 m c) := by
  show StableHlo.after hostOps1 (W2 m ρ c) (Proc.devRef .tc main_v27) = _
  dsimp only [hostOps1]
  after_results
  rw [W2_first, W2_arg5, W2_arg6]
  exact kernel_edgeSum64 _ _ _

theorem W3_colIn : W3 m ρ c (Proc.devRef .tc main_v16) = (colOf (degFactor (X6 m c)) : Mat 50000 1) := by
  show StableHlo.after hostOps1 (W2 m ρ c) (Proc.devRef .tc main_v16) = _
  dsimp only [hostOps1]
  after_results
  exact W2_colIn m ρ c
theorem W3_colOut : W3 m ρ c (Proc.devRef .tc main_v11) = (colOf (degFactor (X5 m c)) : Mat 50000 1) := by
  show StableHlo.after hostOps1 (W2 m ρ c) (Proc.devRef .tc main_v11) = _
  dsimp only [hostOps1]
  after_results
  exact W2_colOut m ρ c
/-- The first bias as one row. -/
theorem W3_bias : W3 m ρ c (Proc.devRef .tc main_v28) = (rowOf (X2 m c) : Mat 1 64) := by
  show StableHlo.after hostOps1 (W2 m ρ c) (Proc.devRef .tc main_v28) = _
  dsimp only [hostOps1]
  after_results
  rw [W2_arg2]
  exact shapeCast_row _ _
theorem W3_arg3 : W3 m ρ c (Proc.devRef .tc main_arg3) = X3 m c := by
  show StableHlo.after hostOps1 (W2 m ρ c) (Proc.devRef .tc main_arg3) = _
  dsimp only [hostOps1]
  after_results
  exact W2_arg3 m ρ c
theorem W3_arg4 : W3 m ρ c (Proc.devRef .tc main_arg4) = X4 m c := by
  show StableHlo.after hostOps1 (W2 m ρ c) (Proc.devRef .tc main_arg4) = _
  dsimp only [hostOps1]
  after_results
  exact W2_arg4 m ρ c
theorem W3_arg5 : W3 m ρ c (Proc.devRef .tc main_arg5) = X5 m c := by
  show StableHlo.after hostOps1 (W2 m ρ c) (Proc.devRef .tc main_arg5) = _
  dsimp only [hostOps1]
  after_results
  exact W2_arg5 m ρ c
theorem W3_arg6 : W3 m ρ c (Proc.devRef .tc main_arg6) = X6 m c := by
  show StableHlo.after hostOps1 (W2 m ρ c) (Proc.devRef .tc main_arg6) = _
  dsimp only [hostOps1]
  after_results
  exact W2_arg6 m ρ c

/-! ## After the second region -/

/-- The first layer's output going into the second: the stage between the two edge sums. -/
abbrev middle : Mat 50000 32 :=
  layerB (edgeSum64 (layerA (X0 m c) (colOf (degFactor (X5 m c))) (X1 m c) : Mat 50000 64) (X5 m c) (X6 m c) : Mat 50000 64)
    (colOf (degFactor (X6 m c))) (rowOf (X2 m c)) (colOf (degFactor (X5 m c))) (X3 m c)

/-- The second region's result. -/
theorem W4_second : W4 m ρ c (Proc.devRef .tc main_v29) = middle m c := by
  refine ((W4_arr m ρ c 5).trans (Region1.array_after (V3 m ρ) c)).trans ?_
  show (layerB (W3 m ρ c (Proc.devRef .tc main_v27) : Mat 50000 64) (W3 m ρ c (Proc.devRef .tc main_v16) : Mat 50000 1)
    (W3 m ρ c (Proc.devRef .tc main_v28) : Mat 1 64) (W3 m ρ c (Proc.devRef .tc main_v11) : Mat 50000 1)
    (W3 m ρ c (Proc.devRef .tc main_arg3) : Mat 64 32) : Mat 50000 32) = _
  rw [W3_sum, W3_colIn, W3_bias, W3_colOut, W3_arg3]

/-- The in-degree column is an input of the second region: it keeps its contents. -/
theorem W4_colIn : W4 m ρ c (Proc.devRef .tc main_v16) = (colOf (degFactor (X6 m c)) : Mat 50000 1) :=
  ((W4_arr m ρ c 1).trans (((dat1 (V3 m ρ) c).arrAt_in 1 rfl _).trans (A_eq1 (V3 m ρ) c 1))).trans (W3_colIn m ρ c)
theorem W4_arg4 : W4 m ρ c (Proc.devRef .tc main_arg4) = X4 m c := (W4_of_ne m ρ c main_arg4 (by decide)).trans (W3_arg4 m ρ c)
theorem W4_arg5 : W4 m ρ c (Proc.devRef .tc main_arg5) = X5 m c := (W4_of_ne m ρ c main_arg5 (by decide)).trans (W3_arg5 m ρ c)
theorem W4_arg6 : W4 m ρ c (Proc.devRef .tc main_arg6) = X6 m c := (W4_of_ne m ρ c main_arg6 (by decide)).trans (W3_arg6 m ρ c)

/-! ## After the host operations before the third region -/

/-- The second edge sum. -/
theorem W5_sum : W5 m ρ c (Proc.devRef .tc main_v39) = edgeSum32 (middle m c) (X5 m c) (X6 m c) := by
  show StableHlo.after hostOps2 (W4 m ρ c) (Proc.devRef .tc main_v39) = _
  dsimp only [hostOps2]
  after_results
  rw [W4_second, W4_arg5, W4_arg6]
  exact kernel_edgeSum32 _ _ _
theorem W5_colIn : W5 m ρ c (Proc.devRef .tc main_v16) = (colOf (degFactor (X6 m c)) : Mat 50000 1) := by
  show StableHlo.after hostOps2 (W4 m ρ c) (Proc.devRef .tc main_v16) = _
  dsimp only [hostOps2]
  after_results
  exact W4_colIn m ρ c
/-- The second bias as one row. -/
theorem W5_bias : W5 m ρ c (Proc.devRef .tc main_v40) = (rowOf (X4 m c) : Mat 1 32) := by
  show StableHlo.after hostOps2 (W4 m ρ c) (Proc.devRef .tc main_v40) = _
  dsimp only [hostOps2]
  after_results
  rw [W4_arg4]
  exact shapeCast_row _ _

/-! ## After the third region: the result -/

/-- The result buffer at the fold's last stage is the graph convolution of the arguments. -/
theorem result_eq : W6 m ρ c (Proc.devRef .tc main_v41)
    = (gcn (X0 m c) (X1 m c) (X2 m c) (X3 m c) (X4 m c) (X5 m c) (X6 m c) : Mat 50000 32) := by
  refine ((W6_arr m ρ c 3).trans (Region2.array_after (V5 m ρ) c)).trans ?_
  show (layerC (W5 m ρ c (Proc.devRef .tc main_v39) : Mat 50000 32) (W5 m ρ c (Proc.devRef .tc main_v16) : Mat 50000 1)
    (W5 m ρ c (Proc.devRef .tc main_v40) : Mat 1 32) : Mat 50000 32) = _
  rw [W5_sum, W5_colIn, W5_bias]
  rfl

end Cert.KernelIdeal.KValue

end
-- ==== Proof.RefValue.lean ====
/-
  The idealized reference's result is the graph convolution `Cert.Graph.gcn` of its seven arguments.

  The reference computes the degree factors twice (once per layer) and the edge sums once per layer; each is the shared
  term of `Cert.Graph` by unfolding the stages' definitions.  The dense stages are read index by index from the
  generated read-at-an-index lemmas: a factor that the reference broadcasts from a vector to a column and then along the
  rows is the column view's entry in the row; a bias broadcast from a vector to a row and then down the columns is the
  row view's entry in the column; the host's general product is the sum over the contracted index.
-/
import proofs.«166579_j30391188586834_1_alg».proof.Proof.Gen.ReferenceIdeal.Read
import proofs.«166579_j30391188586834_1_alg».proof.Proof.Graph

noncomputable section

open scoped BigOperators

namespace Cert.ReferenceIdeal.RefValue

open Cert.ReferenceIdeal Cert.ReferenceIdeal.Read Cert.Graph GraphConv MatProd RowCol
open Idealize.ShloMosaic Idealize.ShloMosaic.TcCoe Idealize.ShloMosaic.ValueIdx

variable (x0 : (⟨S50000x256, .f32⟩ : BufTy).Contents (Elt Ideal)) (x1 : (⟨S256x64, .f32⟩ : BufTy).Contents (Elt Ideal))
  (x2 : (⟨S64, .f32⟩ : BufTy).Contents (Elt Ideal)) (x3 : (⟨S64x32, .f32⟩ : BufTy).Contents (Elt Ideal))
  (x4 : (⟨S32, .f32⟩ : BufTy).Contents (Elt Ideal)) (x5 x6 : (⟨S800000, .i32⟩ : BufTy).Contents (Elt Ideal))

/-! ## The shared host pieces -/

theorem degOut_first : val_main_v10 (F := Ideal) x5 = degFactor x5 := rfl
theorem degIn_first : val_main_v14 (F := Ideal) x6 = degFactor x6 := rfl
theorem degOut_second : val_main_v45 (F := Ideal) x5 = degFactor x5 := rfl
theorem degIn_second : val_main_v49 (F := Ideal) x6 = degFactor x6 := rfl

theorem edgeSum_first :
    val_main_v28 (F := Ideal) x0 x1 x5 x6 = edgeSum64 (val_main_v18 (F := Ideal) x0 x1 x5) x5 x6 := rfl
theorem edgeSum_second :
    val_main_v63 (F := Ideal) x0 x1 x2 x3 x5 x6 = edgeSum32 (val_main_v53 (F := Ideal) x0 x1 x2 x3 x5 x6) x5 x6 := rfl

/-! ## The dense stages -/

/-- The features with row `p` scaled by the out-degree factor of node `p`. -/
theorem scaled_first : val_main_v17 (F := Ideal) x0 x5 = scaleRows (x0 : Mat 50000 256) (colOf (degFactor x5)) := by
  funext j
  rw [val_main_v17_apply, val_main_v16_apply, val_main_v15_apply, degOut_first]
  show x0 j * degFactor x5 (idx_main_v15 (idx_main_v16 j))
    = x0 j * colOf (degFactor x5) (ix2 ⟨(j 0).val, idx2_lt0 j⟩ (0 : Fin 1))
  rw [colOf_eq (degFactor x5) _ (idx_main_v15 (idx_main_v16 j)) rfl]

/-- The stage before the first edge sum. -/
theorem stage_first : val_main_v18 (F := Ideal) x0 x1 x5 = layerA (x0 : Mat 50000 256) (colOf (degFactor x5)) (x1 : Mat 256 64) := by
  funext i
  rw [val_main_v18_apply]
  refine (sum_eq_mm (val_main_v17 (F := Ideal) x0 x5 : Mat 50000 256) (x1 : Mat 256 64) i (lidx_main_v18 i) (ridx_main_v18 i)
    (fun l => funext fun a => by match a with | ⟨0, _⟩ => rfl | ⟨1, _⟩ => rfl)
    (fun l => funext fun a => by match a with | ⟨0, _⟩ => rfl | ⟨1, _⟩ => rfl)).trans ?_
  rw [scaled_first]
  rfl

/-- The first layer's output rows scaled by the second layer's out-degree factors. -/
theorem scaled_second :
    val_main_v52 (F := Ideal) x0 x1 x2 x5 x6
      = scaleRows (addRow (scaleRows (val_main_v28 (F := Ideal) x0 x1 x5 x6 : Mat 50000 64) (colOf (degFactor x6))) (rowOf x2))
          (colOf (degFactor x5)) := by
  funext j
  rw [val_main_v52_apply, val_main_v51_apply, val_main_v50_apply, degOut_second, val_main_v34_apply, val_main_v33_apply,
    val_main_v32_apply, val_main_v31_apply, val_main_v30_apply, val_main_v29_apply, degIn_first]
  show (val_main_v28 (F := Ideal) x0 x1 x5 x6 j * degFactor x6 (idx_main_v29 (idx_main_v30 j)) + x2 (idx_main_v32 (idx_main_v33 j)))
      * degFactor x5 (idx_main_v50 (idx_main_v51 j))
    = (val_main_v28 (F := Ideal) x0 x1 x5 x6 j * colOf (degFactor x6) (ix2 ⟨(j 0).val, idx2_lt0 j⟩ (0 : Fin 1))
        + rowOf x2 (ix2 (0 : Fin 1) ⟨(j 1).val, idx2_lt1 j⟩))
      * colOf (degFactor x5) (ix2 ⟨(j 0).val, idx2_lt0 j⟩ (0 : Fin 1))
  rw [colOf_eq (degFactor x6) _ (idx_main_v29 (idx_main_v30 j)) rfl, rowOf_eq x2 _ (idx_main_v32 (idx_main_v33 j)) rfl,
    colOf_eq (degFactor x5) _ (idx_main_v50 (idx_main_v51 j)) rfl]

/-- The stage between the two edge sums. -/
theorem stage_second :
    val_main_v53 (F := Ideal) x0 x1 x2 x3 x5 x6
      = layerB (val_main_v28 (F := Ideal) x0 x1 x5 x6 : Mat 50000 64) (colOf (degFactor x6)) (rowOf x2) (colOf (degFactor x5))
          (x3 : Mat 64 32) := by
  funext i
  rw [val_main_v53_apply]
  refine (sum_eq_mm (val_main_v52 (F := Ideal) x0 x1 x2 x5 x6 : Mat 50000 64) (x3 : Mat 64 32) i (lidx_main_v53 i) (ridx_main_v53 i)
    (fun l => funext fun a => by match a with | ⟨0, _⟩ => rfl | ⟨1, _⟩ => rfl)
    (fun l => funext fun a => by match a with | ⟨0, _⟩ => rfl | ⟨1, _⟩ => rfl)).trans ?_
  rw [scaled_second]
  rfl

/-- The stage after the second edge sum. -/
theorem stage_third :
    val_main_v69 (F := Ideal) x0 x1 x2 x3 x4 x5 x6
      = layerC (val_main_v63 (F := Ideal) x0 x1 x2 x3 x5 x6 : Mat 50000 32) (colOf (degFactor x6)) (rowOf x4) := by
  funext i
  rw [val_main_v69_apply, val_main_v66_apply, val_main_v65_apply, val_main_v64_apply, degIn_second, val_main_v68_apply,
    val_main_v67_apply]
  show val_main_v63 (F := Ideal) x0 x1 x2 x3 x5 x6 i * degFactor x6 (idx_main_v64 (idx_main_v65 i)) + x4 (idx_main_v67 (idx_main_v68 i))
    = val_main_v63 (F := Ideal) x0 x1 x2 x3 x5 x6 i * colOf (degFactor x6) (ix2 ⟨(i 0).val, idx2_lt0 i⟩ (0 : Fin 1))
      + rowOf x4 (ix2 (0 : Fin 1) ⟨(i 1).val, idx2_lt1 i⟩)
  rw [colOf_eq (degFactor x6) _ (idx_main_v64 (idx_main_v65 i)) rfl, rowOf_eq x4 _ (idx_main_v67 (idx_main_v68 i)) rfl]

/-! ## The whole reference -/

/-- The reference's last stage is the graph convolution of its arguments. -/
theorem result_eq : val_main_v69 (F := Ideal) x0 x1 x2 x3 x4 x5 x6 = gcn x0 x1 x2 x3 x4 x5 x6 := by
  rw [stage_third, edgeSum_second, stage_second, edgeSum_first, stage_first]
  rfl

end Cert.ReferenceIdeal.RefValue

end
-- ==== Proof.lean ====
/-
  A two-layer graph convolution computed by three tiled dense kernels around host edge sums, against the same
  convolution computed by whole-array host operations: equal results over the extended reals.

  Both programs compute, for node features `x`, weights `W₁, W₂`, biases `b₁, b₂` and an edge list `(src, dst)`,

      y₁ = (Σ_edges ((x · d_out) W₁)) · d_in + b₁,      y₂ = (Σ_edges ((y₁ · d_out) W₂)) · d_in + b₂,

  where `d_out`, `d_in` scale each row by (its node's out- or in-degree, at least one)^(−1/2) and `Σ_edges` adds row
  `src e` into row `dst e` for every edge `e`.  The kernel program fuses "· d_in + b₁" of the first layer with
  "· d_out" and the product of the second into one tiled region, computes the degree factors once instead of once per
  layer, narrows the product's operands to a shorter float format (the identity on the extended reals), and works on
  blocks of 5000 rows; none of this changes any entry: every dense stage's entry depends on one row of its row-indexed
  operands, and the degree factors and edge sums are the same host operations in both programs.  So both results are
  `Cert.Graph.gcn` of the arguments:

    * `Cert.KernelIdeal.Named.run`       the kernel program's run with its result buffer kept,
    * `Cert.KernelIdeal.KValue.result_eq` that buffer read back through the three regions (`Region0/1/2`),
    * `Cert.ReferenceIdeal.RefValue.result_eq` the reference's last stage read index by index.

  No law of the extended reals beyond the definitions of sum and product is used, so the finiteness of the inputs is
  never opened.  The idealization rewrote no operation, so the sanctioned-idealization claim is trivial.
-/
import proofs.«166579_j30391188586834_1_alg».proof.Defs
import proofs.«166579_j30391188586834_1_alg».proof.Proof.Gen.Kernel
import proofs.«166579_j30391188586834_1_alg».proof.Proof.Gen.Kernel.Skeleton
import proofs.«166579_j30391188586834_1_alg».proof.Proof.Gen.Kernel.Launch
import proofs.«166579_j30391188586834_1_alg».proof.Proof.Gen.Kernel.Points
import proofs.«166579_j30391188586834_1_alg».proof.Proof.Gen.Kernel.Frame
import proofs.«166579_j30391188586834_1_alg».proof.Proof.Gen.KernelIdeal
import proofs.«166579_j30391188586834_1_alg».proof.Proof.Gen.KernelIdeal.Skeleton
import proofs.«166579_j30391188586834_1_alg».proof.Proof.Gen.KernelIdeal.Launch
import proofs.«166579_j30391188586834_1_alg».proof.Proof.Gen.KernelIdeal.Points
import proofs.«166579_j30391188586834_1_alg».proof.Proof.Gen.KernelIdeal.Frame
import proofs.«166579_j30391188586834_1_alg».proof.Proof.Gen.ReferenceIdeal
import proofs.«166579_j30391188586834_1_alg».proof.Proof.Gen.ReferenceIdeal.Run
import proofs.«166579_j30391188586834_1_alg».proof.Proof.Gen.ReferenceIdeal.Read
import proofs.«166579_j30391188586834_1_alg».proof.Proof.Gen.Pre_finite_inputs
import proofs.«166579_j30391188586834_1_alg».proof.Proof.KernelRun
import proofs.«166579_j30391188586834_1_alg».proof.Proof.KernelValue
import proofs.«166579_j30391188586834_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the graph convolution of the (agreeing) arguments in their result arrays. -/
theorem algebraic : Cert.algebraic_KernelIdeal_ReferenceIdeal := by
  intro m ρ m' ρ' _ hagree
  refine ⟨fun c => Cert.Graph.gcn (Cert.KernelIdeal.KValue.X0 m c) (Cert.KernelIdeal.KValue.X1 m c) (Cert.KernelIdeal.KValue.X2 m c)
      (Cert.KernelIdeal.KValue.X3 m c) (Cert.KernelIdeal.KValue.X4 m c) (Cert.KernelIdeal.KValue.X5 m c) (Cert.KernelIdeal.KValue.X6 m c),
    ?_, ?_⟩
  · exact (θ_run Cert.KernelIdeal.defs _ _).mono
      (fun _ h c => ⟨(h c).1.trans (Cert.KernelIdeal.KValue.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v69_eq, Cert.ReferenceIdeal.RefValue.result_eq]
    obtain ⟨h0, h1, h2, h3, h4, h5, h6⟩ := hagree c
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
